-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S7 .f32) (main_v13 : IVec S_ 1) (main_v16 : IVec S16x7 1) : IVec S_ 1 :=
  let main_c_5 : IVec S_ 1 := constantI S_ 1 1#1
  let main_v17 : IVec S_ 1 := (fun x v => Host.reduce IntOp.andi x v reducesTo_S16x7_S_d0_1 h_S_) main_v16 main_c_5
  let main_v18 : IVec S_ 1 := andi main_v13 main_v17
  let main_v19 : FVec F S7 .f32 := Host.absf main_arg5
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x7 .f32) (main_arg5 : FVec F S7 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x7 .f32 := Host.absf main_arg4
  let main_cst_4 : FVec F S_ .f32 := constant S_ .f32 0x7F800000#32
  let main_v15 : FVec F S16x7 .f32 := broadcastInDim S16x7 ![] bcast_S_S16x7 main_cst_4
  let main_v16 : IVec S16x7 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S4000x512 : Shape := ⟨2, ![4000, 512]⟩
abbrev S4000x16 : Shape := ⟨2, ![4000, 16]⟩
abbrev S3300000x16 : Shape := ⟨2, ![3300000, 16]⟩
abbrev S1x16 : Shape := ⟨2, ![1, 16]⟩
abbrev S100000x7 : Shape := ⟨2, ![100000, 7]⟩
abbrev S10000x16 : Shape := ⟨2, ![10000, 16]⟩
abbrev S10000x7 : Shape := ⟨2, ![10000, 7]⟩
abbrev S3300000x7 : Shape := ⟨2, ![3300000, 7]⟩
abbrev S1x7 : Shape := ⟨2, ![1, 7]⟩
abbrev S100000x1 : Shape := ⟨2, ![100000, 1]⟩

abbrev nBuf : Space → Nat
  | .hbm => 103
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S3300000x1, .f32⟩
  | .hbm, ⟨47, _⟩ => ⟨S100000x16, .f32⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000x16, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x7, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x7, .f32⟩
  | .hbm, ⟨79, _⟩ => ⟨S3300000x7, .f32⟩
  | .hbm, ⟨80, _⟩ => ⟨S3300000x7, .f32⟩
  | .hbm, ⟨81, _⟩ => ⟨S_, .f32⟩
  | .hbm, ⟨82, _⟩ => ⟨S100000x7, .f32⟩
  | .hbm, ⟨83, _⟩ => ⟨S3300000x1, .i32⟩
  | .hbm, ⟨84, _⟩ => ⟨S100000x7, .f32⟩
  | .hbm, ⟨85, _⟩ => ⟨S1x7, .f32⟩
  | .hbm, ⟨86, _⟩ => ⟨S100000x7, .f32⟩
  | .hbm, ⟨87, _⟩ => ⟨S100000x7, .f32⟩
  | .hbm, ⟨88, _⟩ => ⟨S_, .f32⟩
  | .hbm, ⟨89, _⟩ => ⟨S100000, .f32⟩
  | .hbm, ⟨90, _⟩ => ⟨S_, .f32⟩
  | .hbm, ⟨91, _⟩ => ⟨S100000, .f32⟩
  | .hbm, ⟨92, _⟩ => ⟨S100000, .f32⟩
  | .hbm, ⟨93, _⟩ => ⟨S100000x1, .f32⟩
  | .hbm, ⟨94, _⟩ => ⟨S100000x7, .f32⟩
  | .hbm, ⟨95, _⟩ => ⟨S100000x7, .f32⟩
  | .hbm, ⟨96, _⟩ => ⟨S100000x7, .f32⟩
  | .hbm, ⟨97, _⟩ => ⟨S_, .f32⟩
  | .hbm, ⟨98, _⟩ => ⟨S100000, .f32⟩
  | .hbm, ⟨99, _⟩ => ⟨S100000x1, .f32⟩
  | .hbm, ⟨100, _⟩ => ⟨S100000x1, .f32⟩
  | .hbm, ⟨101, _⟩ => ⟨S100000x7, .f32⟩
  | .hbm, ⟨102, _⟩ => ⟨S100000x7, .f32⟩
  | .local _ .vmem, ⟨0, _⟩ => ⟨S4000x512, .f32⟩
  | .local _ .vmem, ⟨1, _⟩ => ⟨S4000x512, .f32⟩
  | .local _ .vmem, ⟨2, _⟩ => ⟨S512x16, .f32⟩
  | .local _ .vmem, ⟨3, _⟩ => ⟨S4000x16, .f32⟩
  | .local _ .vmem, ⟨4, _⟩ => ⟨S4000x16, .f32⟩
  | .local _ .vmem, ⟨5, _⟩ => ⟨S10000x16, .f32⟩
  | .local _ .vmem, ⟨6, _⟩ => ⟨S10000x16, .f32⟩
  | .local _ .vmem, ⟨7, _⟩ => ⟨S16x7, .f32⟩
  | .local _ .vmem, ⟨8, _⟩ => ⟨S10000x7, .f32⟩
  | .local _ .vmem, ⟨9, _⟩ => ⟨S10000x7, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call2_cst : Ref sig .tc := ⟨.hbm, 88, rfl⟩
abbrev main_call2_v0 : Ref sig .tc := ⟨.hbm, 89, rfl⟩
abbrev main_call2_cst_0 : Ref sig .tc := ⟨.hbm, 90, rfl⟩
abbrev main_call2_v1 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_call2_v5 : Ref sig .tc := ⟨.hbm, 95, rfl⟩
abbrev main_call2_v6 : Ref sig .tc := ⟨.hbm, 96, rfl⟩
abbrev main_call2_cst_1 : Ref sig .tc := ⟨.hbm, 97, rfl⟩
abbrev main_call2_v7 : Ref sig .tc := ⟨.hbm, 98, rfl⟩
abbrev main_call2_v8 : Ref sig .tc := ⟨.hbm, 99, rfl⟩
abbrev main_call2_v9 : Ref sig .tc := ⟨.hbm, 100, rfl⟩
abbrev main_call2_v10 : Ref sig .tc := ⟨.hbm, 101, rfl⟩
abbrev main_v64 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x7 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x7 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S4000x16_S4000x16_0_0 : ∀ a, (![0, 0] : Fin 2 → Nat) a + S4000x16.size a ≤ S4000x16.size a
  h_S4000x16 : 0 < S4000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S16x7_S16x7_0_0 : ∀ a, (![0, 0] : Fin 2 → Nat) a + S16x7.size a ≤ S16x7.size a
  h_S16x7 : 0 < S16x7.numel
  inb_S10000x7_S10000x7_0_0 : ∀ a, (![0, 0] : Fin 2 → Nat) a + S10000x7.size a ≤ S10000x7.size a
  h_S10000x7 : 0 < S10000x7.numel
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  reducesTo_S100000x7_S100000_d1 : S100000x7.ReducesTo [1] S100000
  h_S_ : 0 < S_.numel
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S4000x512_S512x16_S4000x16_1_0_0_1_n_n_wf : DotDims.WF S4000x512 S512x16 S4000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x7_S10000x7_1_0_0_1_n_n_wf : DotDims.WF S10000x16 S16x7 S10000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x16.size a ≤ S100000x16.size a
  hwx0_2 : ∀ i : grid0.Coords, EltTy.bits .f32 = 32 ∨ (Rect.block (s := S100000x16) S4000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x7.size a ≤ S16x7.size a
  hwx1_1 : ∀ i : grid1.Coords, EltTy.bits .f32 = 32 ∨ (Rect.block (s := S16x7) S16x7.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x7.size a ≤ S100000x7.size a
  hwx1_2 : ∀ i : grid1.Coords, EltTy.bits .f32 = 32 ∨ (Rect.block (s := S100000x7) S10000x7.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S4000x512_S512x16_S4000x16_1_0_0_1_n_n : DotDims S4000x512 S512x16 S4000x16 where
  lhsContracting := [1]
  rhsContracting := [0]
  lhsNonContracting := [0]
  rhsNonContracting := [1]
  lhsBatch := []
  rhsBatch := []
  wf := dot_S4000x512_S512x16_S4000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x7_S10000x7_1_0_0_1_n_n : DotDims S10000x16 S16x7 S10000x7 where
  lhsContracting := [1]
  rhsContracting := [0]
  lhsNonContracting := [0]
  rhsNonContracting := [1]
  lhsBatch := []
  rhsBatch := []
  wf := dot_S10000x16_S16x7_S10000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S4000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x7.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x7.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x7 : Shape := ⟨2, ![100000, 7]⟩
abbrev S3300000x7 : Shape := ⟨2, ![3300000, 7]⟩
abbrev S1x7 : Shape := ⟨2, ![1, 7]⟩
abbrev S100000x1 : Shape := ⟨2, ![100000, 1]⟩

abbrev nBuf : Space → Nat
  | .hbm => 140
  | .vmem => 0
  | .smem => 0
  | _ => 0

abbrev hbmTy0_0 (i : Nat) : BufTy := match i % 128 with
  | 0 => ⟨S100000x512, .f32⟩
  | 1 => ⟨S2x3200000, .i32⟩
  | 2 => ⟨S512x16, .f32⟩
  | 3 => ⟨S16, .f32⟩
  | 4 => ⟨S16x7, .f32⟩
  | 5 => ⟨S7, .f32⟩
  | 6 => ⟨S1x3200000, .i32⟩
  | 7 => ⟨S3200000, .i32⟩
  | 8 => ⟨S1x3200000, .i32⟩
  | 9 => ⟨S3200000, .i32⟩
  | 10 => ⟨S100000, .i32⟩
  | 11 => ⟨S3300000, .i32⟩
  | 12 => ⟨S3300000, .i32⟩
  | 13 => ⟨S_, .f32⟩
  | 14 => ⟨S3300000, .f32⟩
  | 15 => ⟨S_, .f32⟩
  | 16 => ⟨S100000, .f32⟩
  | 17 => ⟨S3300000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S3300000, .i32⟩
  | 29 => ⟨S3300000, .i1⟩
  | 30 => ⟨S_, .i32⟩
  | 31 => ⟨S3300000, .i32⟩
  | 32 => ⟨S3300000, .i32⟩
  | 33 => ⟨S3300000, .i32⟩
  | 34 => ⟨S3300000x1, .i32⟩
  | 35 => ⟨S3300000, .f32⟩
  | 36 => ⟨S_, .i32⟩
  | 37 => ⟨S3300000, .i32⟩
  | 38 => ⟨S3300000, .i1⟩
  | 39 => ⟨S_, .i32⟩
  | 40 => ⟨S3300000, .i32⟩
  | 41 => ⟨S3300000, .i32⟩
  | 42 => ⟨S3300000, .i32⟩
  | 43 => ⟨S3300000x1, .i32⟩
  | 44 => ⟨S3300000, .f32⟩
  | 45 => ⟨S3300000, .f32⟩
  | 46 => ⟨S100000x16, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x16, .f32⟩
  | 56 => ⟨S3300000x1, .f32⟩
  | 57 => ⟨S3300000x16, .f32⟩
  | 58 => ⟨S3300000x16, .f32⟩
  | 59 => ⟨S_, .f32⟩
  | 60 => ⟨S100000x16, .f32⟩
  | 61 => ⟨S3300000x1, .i32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .f32⟩
  | 69 => ⟨S100000, .i32⟩
  | 70 => ⟨S3300000, .i32⟩
  | 71 => ⟨S3300000, .i32⟩
  | 72 => ⟨S_, .f32⟩
  | 73 => ⟨S3300000, .f32⟩
  | 74 => ⟨S_, .f32⟩
  | 75 => ⟨S100000, .f32⟩
  | 76 => ⟨S3300000x1, .i32⟩
  | 77 => ⟨S100000, .f32⟩
  | 78 => ⟨S_, .f32⟩
  | 79 => ⟨S100000, .f32⟩
  | 80 => ⟨S100000, .i1⟩
  | 81 => ⟨S100000, .f32⟩
  | 82 => ⟨S_, .f32⟩
  | 83 => ⟨S_, .f32⟩
  | 84 => ⟨S100000, .f32⟩
  | 85 => ⟨S100000, .f32⟩
  | 86 => ⟨S_, .i32⟩
  | 87 => ⟨S3300000, .i32⟩
  | 88 => ⟨S3300000, .i1⟩
  | 89 => ⟨S_, .i32⟩
  | 90 => ⟨S3300000, .i32⟩
  | 91 => ⟨S3300000, .i32⟩
  | 92 => ⟨S3300000, .i32⟩
  | 93 => ⟨S3300000x1, .i32⟩
  | 94 => ⟨S3300000, .f32⟩
  | 95 => ⟨S_, .i32⟩
  | 96 => ⟨S3300000, .i32⟩
  | 97 => ⟨S3300000, .i1⟩
  | 98 => ⟨S_, .i32⟩
  | 99 => ⟨S3300000, .i32⟩
  | 100 => ⟨S3300000, .i32⟩
  | 101 => ⟨S3300000, .i32⟩
  | 102 => ⟨S3300000x1, .i32⟩
  | 103 => ⟨S3300000, .f32⟩
  | 104 => ⟨S3300000, .f32⟩
  | 105 => ⟨S100000x7, .f32⟩
  | 106 => ⟨S_, .i32⟩
  | 107 => ⟨S3300000, .i32⟩
  | 108 => ⟨S3300000, .i1⟩
  | 109 => ⟨S_, .i32⟩
  | 110 => ⟨S3300000, .i32⟩
  | 111 => ⟨S3300000, .i32⟩
  | 112 => ⟨S3300000, .i32⟩
  | 113 => ⟨S3300000x1, .i32⟩
  | 114 => ⟨S3300000x7, .f32⟩
  | 115 => ⟨S3300000x1, .f32⟩
  | 116 => ⟨S3300000x7, .f32⟩
  | 117 => ⟨S3300000x7, .f32⟩
  | 118 => ⟨S_, .f32⟩
  | 119 => ⟨S100000x7, .f32⟩
  | 120 => ⟨S3300000x1, .i32⟩
  | 121 => ⟨S100000x7, .f32⟩
  | 122 => ⟨S1x7, .f32⟩
  | 123 => ⟨S100000x7, .f32⟩
  | 124 => ⟨S100000x7, .f32⟩
  | 125 => ⟨S_, .f32⟩
  | 126 => ⟨S100000, .f32⟩
  | 127 => ⟨S_, .f32⟩
  | _ => ⟨S100000x512, .f32⟩

abbrev hbmTy0_1 (i : Nat) : BufTy := match i % 128 with
  | 0 => ⟨S100000, .f32⟩
  | 1 => ⟨S100000, .f32⟩
  | 2 => ⟨S100000x1, .f32⟩
  | 3 => ⟨S100000x7, .f32⟩
  | 4 => ⟨S100000x7, .f32⟩
  | 5 => ⟨S100000x7, .f32⟩
  | 6 => ⟨S_, .f32⟩
  | 7 => ⟨S100000, .f32⟩
  | 8 => ⟨S100000x1, .f32⟩
  | 9 => ⟨S100000x1, .f32⟩
  | 10 => ⟨S100000x7, .f32⟩
  | 11 => ⟨S100000x7, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v58 : Ref sig .tc := ⟨.hbm, 85, rfl⟩
abbrev main_c_13 : Ref sig .tc := ⟨.hbm, 86, rfl⟩
abbrev main_v59 : Ref sig .tc := ⟨.hbm, 87, rfl⟩
abbrev main_v60 : Ref sig .tc := ⟨.hbm, 88, rfl⟩
abbrev main_c_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_15 : Ref sig .tc := ⟨.hbm, 95, rfl⟩
abbrev main_v66 : Ref sig .tc := ⟨.hbm, 96, rfl⟩
abbrev main_v67 : Ref sig .tc := ⟨.hbm, 97, rfl⟩
abbrev main_c_16 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call3_cst : Ref sig .tc := ⟨.hbm, 125, rfl⟩
abbrev main_call3_v0 : Ref sig .tc := ⟨.hbm, 126, rfl⟩
abbrev main_call3_cst_0 : Ref sig .tc := ⟨.hbm, 127, rfl⟩
abbrev main_call3_v1 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_call3_v5 : Ref sig .tc := ⟨.hbm, 132, rfl⟩
abbrev main_call3_v6 : Ref sig .tc := ⟨.hbm, 133, rfl⟩
abbrev main_call3_cst_1 : Ref sig .tc := ⟨.hbm, 134, rfl⟩
abbrev main_call3_v7 : Ref sig .tc := ⟨.hbm, 135, rfl⟩
abbrev main_call3_v8 : Ref sig .tc := ⟨.hbm, 136, rfl⟩
abbrev main_call3_v9 : Ref sig .tc := ⟨.hbm, 137, rfl⟩
abbrev main_call3_v10 : Ref sig .tc := ⟨.hbm, 138, rfl⟩
abbrev main_v91 : Ref sig .tc := ⟨.hbm, 139, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  reducesTo_S100000x7_S100000_d1 : S100000x7.ReducesTo [1] S100000
  h_S_ : 0 < S_.numel
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x7_S100000x7_1_0_0_1_n_n_wf : DotDims.WF S100000x16 S16x7 S100000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

class Facts : Prop extends Facts₀ where

variable [Facts]
-- ==== Proof.KRun.lean ====
/-
  The idealized kernel program's run, keeping its result.

  The program is nine segments: three stretches of host operations (the edge list is cut into source and
  destination labels, self-loops are appended, the in-degrees are counted and the per-edge weights
  dinv[src]·dinv[dst] are formed), the first row-tiled matrix product x·W1, two stretches (gather of the rows by
  source label, scaling, scatter-add by destination label, bias, relu), the second row-tiled product, and two
  closing stretches (the same propagation on seven columns, bias, row-wise log-softmax).  The contents of every
  unscoped buffer at each segment boundary are the fold W0 … W9 over these segments; every weakly fair
  execution ends with each unscoped buffer at its W9 contents.  Here the result buffer is kept in the
  postcondition beside the six argument arrays.
-/
import proofs.«109695_j64544768525120_1_alg».proof.Proof.Gen.KernelIdeal.Frame

set_option maxRecDepth 16384

noncomputable section

namespace Cert.KernelIdeal.GcnRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds its
    contents at the last segment boundary, and the six argument arrays are as launched. -/
theorem run_value : θ_run defs (onTc (τ := τ) (main (F := F))) ⟨m, fun _ => 0, ρ⟩ (fun r => ∀ c : Dev nD,
      r.2.mem ((c.tc : Thread nD τ).loc main_v64) = W9 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v64 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.GcnRun

end
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.KProduct0.lean ====
/-
  The first row-tiled product as one matrix product.

  The first kernel region walks 25 grid points; point t reads rows 4000·t … 4000·t + 3999 of the 100000×512
  feature matrix and the whole 512×16 weight matrix, and writes the 4000×16 product of the two as rows
  4000·t … 4000·t + 3999 of its output.  Entry (r, q) of a block's product is the sum over k of
  block(r, k)·weight(k, q), the rounding to bf16 on the way into the product being the identity on the extended
  reals; the same sum is entry (4000·t + r, q) of the product of the whole matrices.  The 25 blocks tile the
  output, so the output array ends holding the whole product, whatever the region finds in its input arrays.
-/
import proofs.«109695_j64544768525120_1_alg».proof.Proof.Gen.KernelIdeal.Frame
import proofs.«109695_j64544768525120_1_alg».proof.Proof.Gen.ReferenceIdeal
import proofs.«109695_j64544768525120_1_alg».proof.Proof.LibPlainDot
import Idealize.ShloMosaic.Lib.Pipeline.Value
import Idealize.ShloMosaic.Lib.ValueIdx

set_option maxRecDepth 16384

noncomputable section

namespace Cert.KernelIdeal.GcnProduct0

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-- The dimension numbers of the whole product x·W1 (rows by columns, one contracted axis). -/
abbrev wholeDot := Cert.ReferenceIdeal.dot_S100000x512_S512x16_S100000x16_1_0_0_1_n_n

/-- The product of a whole feature matrix and a whole weight matrix, as the host spells it. -/
abbrev wholeProduct (a0 : S100000x512.Idx → Elt Ideal .f32) (a1 : S512x16.Idx → Elt Ideal .f32) : S100000x16.Idx → Elt Ideal .f32 :=
  Host.dotGeneral (F := Ideal) (φ₁ := .f32) (φ₂ := .f32) wholeDot none (a0 : FVec Ideal Cert.ReferenceIdeal.S100000x512 .f32) (a1 : FVec Ideal Cert.ReferenceIdeal.S512x16 .f32)

variable (V : (c : Dev nD) → (b : Ref sig .tc) → Buf (Elt Ideal) ((c : Thread nD τ).loc b))

theorem zero_offsets : (![0, 0] : Fin 2 → Nat) = fun _ => 0 := funext fun a => by fin_cases a <;> rfl

/-- A block's product at an entry: the sum over the contracted axis. -/
theorem block_entry (x0 : Vec Ideal S4000x512 .f32) (x1 : Vec Ideal S512x16 .f32) (j : S4000x16.Idx) :
    k0_pay1 x0 x1 j = ∑ k : Fin 512, x0 (ix2 (j 0) k) * x1 (ix2 k (j 1)) :=
  PlainDot.matmul_zero_apply dot_S4000x512_S512x16_S4000x16_1_0_0_1_n_n rfl none x0 x1 j

/-- The printed index maps over the grid: the feature window and the output window sit at block row t, column
    block 0; the weight window at block (0, 0). -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every block row of the output is some grid point's. -/
theorem block_rows_onto : ∀ q : Fin 25, ∃ t : Fin cfg0.N, win0_2.index t = ![q.val, 0] :=
  (by decide +kernel : ∀ q : Fin 25, ∃ t : Fin grid0.N, win0_2.index t = ![q.val, 0])

/-- What grid point t writes back is its block of the whole product of the arrays the region finds. -/
theorem written_back (c : Dev nD) (t : Fin cfg0.N) :
    (dat0 V c).flushed 2 t
      = ((cfg0.win 2).blk t).view.read (Elt Ideal) (wholeProduct (V c main_arg0) (V c main_arg2)) := by
  show (cfg0.win 2).cut (grid0.coords t) ((dat0 V c).after 2 t) = _
  rw [after0_2]
  unfold out0_2
  rw [View.canon_unit_zero zero_offsets]
  simp only [View.ld_unit_zero (S := S4000x512) zero_offsets, View.ld_unit_zero (S := S512x16) zero_offsets]
  obtain ⟨e0, e1, e2, e3, e4, e5⟩ := index_maps t
  funext j
  refine (block_entry (iblk0 V c 0 t) (iblk0 V c 1 t) j).trans ?_
  show _ = wholeProduct (V c main_arg0) (V c main_arg2) (((cfg0.win 2).blk t).view.emb j)
  refine ((PlainDot.hostDot_apply (φ₁ := .f32) (φ₂ := .f32) wholeDot rfl none (V c main_arg0 : FVec Ideal Cert.ReferenceIdeal.S100000x512 .f32) (V c main_arg2 : FVec Ideal Cert.ReferenceIdeal.S512x16 .f32) (((cfg0.win 2).blk t).view.emb j)).trans ?_).symm
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 4000 + 1 * (j 0).val = win0_2.index t (0 : Fin 2) * 4000 + 1 * (j 0).val; omega
    | ⟨1, _⟩ => show win0_0.index t (1 : Fin 2) * 512 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 512 + 1 * k.val = k.val; omega
    | ⟨1, _⟩ => show win0_1.index t (1 : Fin 2) * 16 + 1 * (j 1).val = win0_2.index t (1 : Fin 2) * 16 + 1 * (j 1).val; omega
  have a0 : iblk0 V c 0 t (ix2 (j 0) k)
      = (V c main_arg0 : FVec Ideal Cert.ReferenceIdeal.S100000x512 .f32) (ix2 ((((cfg0.win 2).blk t).view.emb j) 0) k) := by
    show V c main_arg0 (((cfg0.win 0).blk t).view.emb (ix2 (j 0) k)) = _
    rw [h0]; rfl
  have a1 : iblk0 V c 1 t (ix2 k (j 1))
      = (V c main_arg2 : FVec Ideal Cert.ReferenceIdeal.S512x16 .f32) (ix2 k ((((cfg0.win 2).blk t).view.emb j) 1)) := by
    show V c main_arg2 (((cfg0.win 1).blk t).view.emb (ix2 k (j 1))) = _
    rw [h1]; rfl
  rw [a0, a1]

/-- An index of the output is in point t's block iff each coordinate is in the block's range on its axis. -/
theorem in_block (t : Fin cfg0.N) (i : S100000x16.Idx) :
    i ∈ ((cfg0.win 2).blk t).view.set ↔ ∀ a : Fin 2, win0_2.index t a * S4000x16.size a ≤ (i a).val ∧ (i a).val < win0_2.index t a * S4000x16.size a + S4000x16.size a := by
  show i ∈ ((View.whole main_v31).slice (win0_2.rect t)).set ↔ _
  rw [View.set_slice_whole, Rect.mem_set_unit]
  exact Iff.rfl

/-- Row r of the output lies in the block of point r / 4000. -/
theorem covered (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := block_rows_onto ⟨(i 0).val / 4000, by omega⟩
  have q0 : win0_2.index t (0 : Fin 2) = (i 0).val / 4000 := congrFun ht 0
  have q1 : win0_2.index t (1 : Fin 2) = 0 := congrFun ht 1
  refine ⟨t, flush0_2 t, ?_⟩
  rw [in_block]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 16 ≤ (i 1).val ∧ (i 1).val < win0_2.index t (1 : Fin 2) * 16 + 16; omega

/-- The output array after the region is the product of the feature and weight arrays the region finds. -/
theorem whole_product (c : Dev nD) :
    (dat0 V c).arrAt 2 cfg0.N = wholeProduct (V c main_arg0) (V c main_arg2) :=
  (dat0 V c).arrAt_eq_of_cover 2 _ (fun t _ => written_back V c t) covered

end Cert.KernelIdeal.GcnProduct0

end
-- ==== Proof.KProduct1.lean ====
/-
  The second row-tiled product as one matrix product.

  The second kernel region walks 10 grid points; point t reads rows 10000·t … 10000·t + 9999 of the 100000×16
  hidden matrix and the whole 16×7 weight matrix, and writes the 10000×7 product of the two as rows
  10000·t … 10000·t + 9999 of its output.  Entry (r, q) of a block's product is the sum over k of
  block(r, k)·weight(k, q) (the cast of the block to its own shape and the rounding to bf16 are the identity on the
  extended reals); the same sum is entry (10000·t + r, q) of the product of the whole matrices.  The 10 blocks tile
  the output, so the output array ends holding the whole product, whatever the region finds in its input arrays.
-/
import proofs.«109695_j64544768525120_1_alg».proof.Proof.Gen.KernelIdeal.Frame
import proofs.«109695_j64544768525120_1_alg».proof.Proof.Gen.ReferenceIdeal
import proofs.«109695_j64544768525120_1_alg».proof.Proof.LibPlainDot
import Idealize.ShloMosaic.Lib.Pipeline.Value
import Idealize.ShloMosaic.Lib.ValueIdx

set_option maxRecDepth 16384

noncomputable section

namespace Cert.KernelIdeal.GcnProduct1

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-- The dimension numbers of the whole product h·W2 (rows by columns, one contracted axis). -/
abbrev wholeDot := Cert.ReferenceIdeal.dot_S100000x16_S16x7_S100000x7_1_0_0_1_n_n

/-- The product of a whole hidden matrix and a whole weight matrix, as the host spells it. -/
abbrev wholeProduct (a0 : S100000x16.Idx → Elt Ideal .f32) (a1 : S16x7.Idx → Elt Ideal .f32) : S100000x7.Idx → Elt Ideal .f32 :=
  Host.dotGeneral (F := Ideal) (φ₁ := .f32) (φ₂ := .f32) wholeDot none (a0 : FVec Ideal Cert.ReferenceIdeal.S100000x16 .f32) (a1 : FVec Ideal Cert.ReferenceIdeal.S16x7 .f32)

variable (V : (c : Dev nD) → (b : Ref sig .tc) → Buf (Elt Ideal) ((c : Thread nD τ).loc b))

theorem zero_offsets : (![0, 0] : Fin 2 → Nat) = fun _ => 0 := funext fun a => by fin_cases a <;> rfl

/-- A block's product at an entry: the sum over the contracted axis. -/
theorem block_entry (x0 : Vec Ideal S10000x16 .f32) (x1 : Vec Ideal S16x7 .f32) (j : S10000x7.Idx) :
    k1_pay1 x0 x1 j = ∑ k : Fin 16, x0 (ix2 (j 0) k) * x1 (ix2 k (j 1)) :=
  by
  show matmul dot_S10000x16_S16x7_S10000x7_1_0_0_1_n_n none
    (truncf .bf16 (shapeCast S10000x16 x0 shapeCasts_S10000x16_S10000x16 : FVec Ideal S10000x16 .f32) bitsLt_bf16_f32)
    (truncf .bf16 (x1 : FVec Ideal S16x7 .f32) bitsLt_bf16_f32) (constant (F := Ideal) S10000x7 .f32 0x00000000#32) j = _
  rw [shapeCast_self]
  exact PlainDot.matmul_zero_apply dot_S10000x16_S16x7_S10000x7_1_0_0_1_n_n rfl none
    (truncf .bf16 (x0 : FVec Ideal S10000x16 .f32) bitsLt_bf16_f32) (truncf .bf16 (x1 : FVec Ideal S16x7 .f32) bitsLt_bf16_f32) j

/-- The printed index maps over the grid: the hidden-matrix window and the output window sit at block row t, column
    block 0; the weight window at block (0, 0). -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every block row of the output is some grid point's. -/
theorem block_rows_onto : ∀ q : Fin 10, ∃ t : Fin cfg1.N, win1_2.index t = ![q.val, 0] :=
  (by decide +kernel : ∀ q : Fin 10, ∃ t : Fin grid1.N, win1_2.index t = ![q.val, 0])

/-- What grid point t writes back is its block of the whole product of the arrays the region finds. -/
theorem written_back (c : Dev nD) (t : Fin cfg1.N) :
    (dat1 V c).flushed 2 t
      = ((cfg1.win 2).blk t).view.read (Elt Ideal) (wholeProduct (V c main_v47) (V c main_arg4)) := by
  show (cfg1.win 2).cut (grid1.coords t) ((dat1 V c).after 2 t) = _
  rw [after1_2]
  unfold out1_2
  rw [View.canon_unit_zero zero_offsets]
  simp only [View.ld_unit_zero (S := S10000x16) zero_offsets, View.ld_unit_zero (S := S16x7) zero_offsets]
  obtain ⟨e0, e1, e2, e3, e4, e5⟩ := index_maps t
  funext j
  refine (block_entry (iblk1 V c 0 t) (iblk1 V c 1 t) j).trans ?_
  show _ = wholeProduct (V c main_v47) (V c main_arg4) (((cfg1.win 2).blk t).view.emb j)
  refine ((PlainDot.hostDot_apply (φ₁ := .f32) (φ₂ := .f32) wholeDot rfl none (V c main_v47 : FVec Ideal Cert.ReferenceIdeal.S100000x16 .f32) (V c main_arg4 : FVec Ideal Cert.ReferenceIdeal.S16x7 .f32) (((cfg1.win 2).blk t).view.emb j)).trans ?_).symm
  refine Finset.sum_congr rfl fun k _ => ?_
  have h0 : ((cfg1.win 0).blk t).view.emb (ix2 (j 0) k) = ix2 ((((cfg1.win 2).blk t).view.emb j) 0) k := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 16 + 1 * k.val = k.val; omega
  have h1 : ((cfg1.win 1).blk t).view.emb (ix2 k (j 1)) = ix2 k ((((cfg1.win 2).blk t).view.emb j) 1) := by
    funext a; apply Fin.ext
    match a with
    | ⟨0, _⟩ => show win1_1.index t (0 : Fin 2) * 16 + 1 * k.val = k.val; omega
    | ⟨1, _⟩ => show win1_1.index t (1 : Fin 2) * 7 + 1 * (j 1).val = win1_2.index t (1 : Fin 2) * 7 + 1 * (j 1).val; omega
  have a0 : iblk1 V c 0 t (ix2 (j 0) k)
      = (V c main_v47 : FVec Ideal Cert.ReferenceIdeal.S100000x16 .f32) (ix2 ((((cfg1.win 2).blk t).view.emb j) 0) k) := by
    show V c main_v47 (((cfg1.win 0).blk t).view.emb (ix2 (j 0) k)) = _
    rw [h0]; rfl
  have a1 : iblk1 V c 1 t (ix2 k (j 1))
      = (V c main_arg4 : FVec Ideal Cert.ReferenceIdeal.S16x7 .f32) (ix2 k ((((cfg1.win 2).blk t).view.emb j) 1)) := by
    show V c main_arg4 (((cfg1.win 1).blk t).view.emb (ix2 k (j 1))) = _
    rw [h1]; rfl
  rw [a0, a1]

/-- An index of the output is in point t's block iff each coordinate is in the block's range on its axis. -/
theorem in_block (t : Fin cfg1.N) (i : S100000x7.Idx) :
    i ∈ ((cfg1.win 2).blk t).view.set ↔ ∀ a : Fin 2, win1_2.index t a * S10000x7.size a ≤ (i a).val ∧ (i a).val < win1_2.index t a * S10000x7.size a + S10000x7.size a := by
  show i ∈ ((View.whole main_v48).slice (win1_2.rect t)).set ↔ _
  rw [View.set_slice_whole, Rect.mem_set_unit]
  exact Iff.rfl

/-- Row r of the output lies in the block of point r / 10000. -/
theorem covered (i : S100000x7.Idx) :
    ∃ t : Fin cfg1.N, (cfg1.win 2).flush t = true ∧ i ∈ ((cfg1.win 2).blk t).view.set := by
  have hi0 : (i 0).val < 100000 := (i 0).isLt
  have hi1 : (i 1).val < 7 := (i 1).isLt
  obtain ⟨t, ht⟩ := block_rows_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [in_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 7 ≤ (i 1).val ∧ (i 1).val < win1_2.index t (1 : Fin 2) * 7 + 7; omega

/-- The output array after the region is the product of the hidden and weight arrays the region finds. -/
theorem whole_product (c : Dev nD) :
    (dat1 V c).arrAt 2 cfg1.N = wholeProduct (V c main_v47) (V c main_arg4) :=
  (dat1 V c).arrAt_eq_of_cover 2 _ (fun t _ => written_back V c t) covered

end Cert.KernelIdeal.GcnProduct1

end
-- ==== Proof.RefLayers.lean ====
/-
  The two-layer graph convolution as a function of the argument arrays, layer by layer.

  The edge list has 3200000 edges on 100000 nodes; row 0 holds the source labels and row 1 the destination
  labels, and a self-loop is appended for every node, giving 3300000 labelled edges.  deg is the number of edges
  into a node (a scatter-add of ones by destination label), dinv = deg^(-1/2) where deg > 0 and 0 elsewhere, and
  edge e carries the weight dinv[src e]·dinv[dst e], kept as a one-column array.  A propagation step takes a node
  feature matrix h, gathers row src e for every edge e, scales it by the edge's weight, adds it into row dst e
  (scatter-add into zeros) and adds a bias row.  The hidden layer is max(propagate(x·W1) + b1, 0); the output is the
  row-wise log-softmax z − max z − log Σ exp(z − max z) of z = propagate(hidden·W2) + b2.  A label is spelt through
  the test "below zero: add 100000", as both programs spell it.
-/
import proofs.«109695_j64544768525120_1_alg».proof.ReferenceIdeal
import proofs.«109695_j64544768525120_1_alg».proof.Proof.Gen.ReferenceIdeal

noncomputable section

namespace Cert.ReferenceIdeal.Gcn

open Cert.ReferenceIdeal Cert.ReferenceIdeal.Gen Idealize.ShloMosaic

variable {F : FTy → Type} [FloatOps F]

/-- The source labels: row 0 of the edge list, then the self-loops 0 … 99999. -/
def srcLabels (ei : IVec S2x3200000 32) : IVec S3300000 32 :=
  (concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0)

/-- The destination labels: row 1 of the edge list, then the self-loops 0 … 99999. -/
def dstLabels (ei : IVec S2x3200000 32) : IVec S3300000 32 :=
  (concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0)

/-- A label read as an index: a label below zero counts from the end. -/
def wrap (v : IVec S3300000 32) : IVec S3300000 32 :=
  (select (cmpi .slt v (broadcastInDim S3300000 ![] bcast_S_S3300000 (constantI S_ 32 0#32))) (addi v (broadcastInDim S3300000 ![] bcast_S_S3300000 (constantI S_ 32 100000#32))) v)

/-- The in-degree of every node, self-loop included: ones added up by destination label. -/
def degree (dst : IVec S3300000 32) : FVec F S100000 .f32 :=
  (Host.scatterAdd scatter_S100000_S3300000x1_S3300000_n_0_0_1 (broadcastInDim S100000 ![] bcast_S_S100000 (constant S_ .f32 0x00000000#32)) (broadcastInDim S3300000x1 ![0] bcast_S3300000_S3300000x1_0 dst) (broadcastInDim S3300000 ![] bcast_S_S3300000 (constant S_ .f32 0x3F800000#32)))

/-- deg^(-1/2) where the degree is positive, zero elsewhere. -/
def invSqrtDegree (dst : IVec S3300000 32) : FVec F S100000 .f32 :=
  (select (cmpf (F := F) .ogt (degree (F := F) dst) (broadcastInDim S100000 ![] bcast_S_S100000 (constant S_ .f32 0x00000000#32))) (Host.rsqrt (degree (F := F) dst)) (broadcastInDim S100000 ![] bcast_S_S100000 (id (constant S_ .f32 0x00000000#32))))

/-- The weight of every edge, dinv[src]·dinv[dst], as a one-column array. -/
def edgeWeight (src dst : IVec S3300000 32) : FVec F S3300000x1 .f32 :=
  (broadcastInDim S3300000x1 ![0] bcast_S3300000_S3300000x1_0 (mulf (Host.gather gather_S100000_S3300000x1_S3300000_n_0_n_n_0_1_1 (invSqrtDegree (F := F) dst) (broadcastInDim S3300000x1 ![0] bcast_S3300000_S3300000x1_0 (wrap src))) (Host.gather gather_S100000_S3300000x1_S3300000_n_0_n_n_0_1_1 (invSqrtDegree (F := F) dst) (broadcastInDim S3300000x1 ![0] bcast_S3300000_S3300000x1_0 (wrap dst)))))

/-- A propagation step on 16 columns: gather by source, scale, scatter-add by destination, add the bias row. -/
def propagate16 (h1 : FVec F S100000x16 .f32) (src dst : IVec S3300000 32) (nrm : FVec F S3300000x1 .f32) (b : FVec F S16 .f32) :
    FVec F S100000x16 .f32 :=
  (addf (Host.scatterAdd scatter_S100000x16_S3300000x1_S3300000x16_1_0_0_1 (broadcastInDim S100000x16 ![] bcast_S_S100000x16 (constant S_ .f32 0x00000000#32)) (broadcastInDim S3300000x1 ![0] bcast_S3300000_S3300000x1_0 dst) (mulf (Host.gather gather_S100000x16_S3300000x1_S3300000x16_1_0_n_n_0_1_116 h1 (broadcastInDim S3300000x1 ![0] bcast_S3300000_S3300000x1_0 (wrap src))) (broadcastInDim S3300000x16 ![0, 1] bcast_S3300000x1_S3300000x16_0_1 nrm))) (broadcastInDim S100000x16 ![0, 1] bcast_S1x16_S100000x16_0_1 (broadcastInDim S1x16 ![1] bcast_S16_S1x16_1 b)))

/-- The hidden layer: the propagation step followed by relu. -/
def hiddenLayer (h1 : FVec F S100000x16 .f32) (src dst : IVec S3300000 32) (nrm : FVec F S3300000x1 .f32) (b : FVec F S16 .f32) :
    FVec F S100000x16 .f32 :=
  (maximumf (propagate16 h1 src dst nrm b) (broadcastInDim S100000x16 ![] bcast_S_S100000x16 (constant S_ .f32 0x00000000#32)))

/-- A propagation step on 7 columns. -/
def propagate7 (h2 : FVec F S100000x7 .f32) (src dst : IVec S3300000 32) (nrm : FVec F S3300000x1 .f32) (b : FVec F S7 .f32) :
    FVec F S100000x7 .f32 :=
  (addf (Host.scatterAdd scatter_S100000x7_S3300000x1_S3300000x7_1_0_0_1 (broadcastInDim S100000x7 ![] bcast_S_S100000x7 (constant S_ .f32 0x00000000#32)) (broadcastInDim S3300000x1 ![0] bcast_S3300000_S3300000x1_0 dst) (mulf (Host.gather gather_S100000x7_S3300000x1_S3300000x7_1_0_n_n_0_1_17 h2 (broadcastInDim S3300000x1 ![0] bcast_S3300000_S3300000x1_0 (wrap src))) (broadcastInDim S3300000x7 ![0, 1] bcast_S3300000x1_S3300000x7_0_1 nrm))) (broadcastInDim S100000x7 ![0, 1] bcast_S1x7_S100000x7_0_1 (broadcastInDim S1x7 ![1] bcast_S7_S1x7_1 b)))

/-- The maximum of every row, repeated along the row. -/
def rowMax (z : FVec F S100000x7 .f32) : FVec F S100000x7 .f32 :=
  (broadcastInDim S100000x7 ![0, 1] bcast_S100000x1_S100000x7_0_1 (broadcastInDim S100000x1 ![0] bcast_S100000_S100000x1_0 (maximumf (broadcastInDim S100000 ![] bcast_S_S100000 (constant S_ .f32 0xFF800000#32)) (Host.reduce FloatOps.maximumf z (constant S_ .f32 0xFF800000#32) reducesTo_S100000x7_S100000_d1 h_S_))))

/-- The row-wise log-softmax: z − max z − log Σ exp (z − max z). -/
def rowLogSoftmax (z : FVec F S100000x7 .f32) : FVec F S100000x7 .f32 :=
  subf (subf z (rowMax z)) (broadcastInDim S100000x7 ![0, 1] bcast_S100000x1_S100000x7_0_1 (Host.log (broadcastInDim S100000x1 ![0] bcast_S100000_S100000x1_0 (Host.reduceAdd (Host.exp (subf z (rowMax z))) (constant S_ .f32 0x00000000#32) reducesTo_S100000x7_S100000_d1 h_S_))))

/-- The output layer: the propagation step followed by the row-wise log-softmax. -/
def outputLayer (h2 : FVec F S100000x7 .f32) (src dst : IVec S3300000 32) (nrm : FVec F S3300000x1 .f32) (b : FVec F S7 .f32) :
    FVec F S100000x7 .f32 :=
  rowLogSoftmax (propagate7 h2 src dst nrm b)

/-- The whole network: two matrix products, each followed by its layer. -/
def network (x : FVec F S100000x512 .f32) (ei : IVec S2x3200000 32) (w1 : FVec F S512x16 .f32) (b1 : FVec F S16 .f32)
    (w2 : FVec F S16x7 .f32) (b2 : FVec F S7 .f32) : FVec F S100000x7 .f32 :=
  outputLayer
    (Host.dotGeneral dot_S100000x16_S16x7_S100000x7_1_0_0_1_n_n none
      (hiddenLayer (Host.dotGeneral dot_S100000x512_S512x16_S100000x16_1_0_0_1_n_n none x w1)
        (srcLabels ei) (dstLabels ei) (edgeWeight (srcLabels ei) (dstLabels ei)) b1) w2)
    (srcLabels ei) (dstLabels ei) (edgeWeight (srcLabels ei) (dstLabels ei)) b2

end Cert.ReferenceIdeal.Gcn

end
-- ==== Proof.RefNetwork.lean ====
/-
  The reference program's result is the network function of its arguments.

  The reference's run states its result as one composed term of the six argument arrays, in which the label
  arrays, the edge weights and the hidden layer appear wherever an operation reads them.  Folding the repeated
  parts back into the layer functions gives the network function; the two are the same term once the layer
  functions are unfolded.
-/
import proofs.«109695_j64544768525120_1_alg».proof.Proof.RefRun
import proofs.«109695_j64544768525120_1_alg».proof.Proof.RefLayers
import Idealize.ShloMosaic.PureOps.Ideal

noncomputable section

namespace Cert.ReferenceIdeal.Gcn

open Cert.ReferenceIdeal Cert.ReferenceIdeal.Gen Idealize.ShloMosaic Idealize.ShloMosaic.TcCoe Idealize.SL.Sem

set_option maxRecDepth 65536 in
/-- The reference run's result term is the network function of the launch contents of the six arguments. -/
theorem result_is_network (m : (ℓ : Loc nD τ sig) → Buf (Elt Ideal) ℓ) (c : Dev nD) :
    Cert.ReferenceIdeal.ValueP.res_main_v91 m c
      = network (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.ValueP.res_main_v91 network outputLayer rowLogSoftmax rowMax propagate7 hiddenLayer propagate16
    edgeWeight invSqrtDegree degree wrap srcLabels dstLabels
  rfl

end Cert.ReferenceIdeal.Gcn

end
-- ==== Proof.LibTypedMoves.lean ====
/-
  Reading a line of host operations back to a pure term: two facts about outlined functions' operations, and two
  rewriting loops.

  An operation of a module-local function (jnp.where, relu, log_softmax, …) is spelt over typed references: its
  function is stated at the value's type T and moved to the buffer's own type along the reference's proof that the
  two agree (`toBuf`), an operand's contents the other way (`ofBuf`).  For a buffer of the printed signature the
  value's type IS the buffer's type, so both moves are the identity:

  * `ofBuf_self`, `toBuf_self`: the identity, stated at T := the buffer's own type so that rewriting with them
    unifies T with the buffer's type by unfolding the signature once per buffer.  A goal that still carries the
    moves around a `Host.reduce` or a `select` over large operands is expensive to close by unfolding; after
    `strip_moves` it is an equation between pure terms.
  * `read_back`: the result lemmas of Lib/StableHlo/Run.lean as a rewriting loop.  After the one-pass form
    (`after_results_simp`) a buffer read that sits inside a concatenate's operand list — a dependent pair of a
    shape and an array — is left as an unrewritten chain of `.result`; this loop clears those.
-/
import Idealize.ShloMosaic.Lib.StableHlo.Run

noncomputable section

namespace Idealize.ShloMosaic.TypedMoves

open Idealize.ShloMosaic Idealize.ShloMosaic.StableHlo

/-- An operand of an outlined function's operation, read at the value's type when that is the buffer's own type:
    the move is the identity. -/
theorem ofBuf_self {sig : RefSig} {Val : EltTy → Type} (r : Ref sig .tc) (p1 : r.ty = r.ty) (p2 : r.space ≠ .host)
    (p3 : r.isScoped = false) (a : r.ty.Contents Val) : (TRef.of (T := r.ty) r p1 p2 p3).ofBuf a = a := rfl

/-- The result of an outlined function's operation, written at the buffer's own type: the same identity. -/
theorem toBuf_self {sig : RefSig} {Val : EltTy → Type} (r : Ref sig .tc) (p1 : r.ty = r.ty) (p2 : r.space ≠ .host)
    (p3 : r.isScoped = false) (v : r.ty.Contents Val) : (TRef.of (T := r.ty) r p1 p2 p3).toBuf v = v := rfl

/-- Removes the moves between a value's type and its buffer's type, one buffer at a time. -/
macro "strip_moves" : tactic => `(tactic| (repeat (first | rw [ofBuf_self] | rw [toBuf_self])))

/-- Reads a buffer back through the operations left in the goal, one rewriting step per operation and reference. -/
macro "read_back" : tactic =>
  `(tactic| (repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide))))

end Idealize.ShloMosaic.TypedMoves

end
-- ==== Proof.Bridge.lean ====
/-
  The idealized kernel program's result is the network function of its arguments.

  The result buffer's contents at the last segment boundary are read back through the nine segments.  The two
  closing stretches are the output layer over the second region's output, the label arrays, the edge weights and
  the second bias as the second region leaves them; that region leaves every buffer but its output as it found it,
  and its output at the whole product of the hidden layer and W2; the two middle stretches are the hidden layer over
  the first region's output, which is the whole product x·W1; and the three opening stretches form the label arrays
  and the edge weights from the edge list alone.  No host stretch and no region writes an argument array.  Composed,
  this is the network function of the six arguments — the function the reference's result is, on arguments that
  agree.
-/
import proofs.«109695_j64544768525120_1_alg».proof.Proof.Gen.KernelIdeal.Frame
import proofs.«109695_j64544768525120_1_alg».proof.Proof.KProduct0
import proofs.«109695_j64544768525120_1_alg».proof.Proof.KProduct1
import proofs.«109695_j64544768525120_1_alg».proof.Proof.RefNetwork
import proofs.«109695_j64544768525120_1_alg».proof.Proof.LibTypedMoves
import Idealize.ShloMosaic.PureOps.Ideal

noncomputable section

namespace Cert.KernelIdeal.GcnBridge

open Idealize.ShloMosaic Idealize.ShloMosaic.TcCoe Idealize.ShloMosaic.Tactic Idealize.ShloMosaic.StableHlo
open Idealize.SL.Sem
open Cert.KernelIdeal Cert.KernelIdeal.Gen
open Idealize.ShloMosaic.TypedMoves
open Cert.ReferenceIdeal.Gcn (srcLabels dstLabels edgeWeight hiddenLayer outputLayer network)

variable (m : (ℓ : Loc nD τ sig) → Buf (Elt Ideal) ℓ) (ρ : Dev nD → PrngReg)

/-- The edge list as launched. -/
abbrev edges (c : Dev nD) : IVec Cert.ReferenceIdeal.S2x3200000 32 := m ((c.tc : Thread nD τ).loc main_arg1)

/-! ## The opening stretches: label arrays and edge weights, at the first region's entry -/

set_option maxRecDepth 65536 in
theorem src_at_entry (c : Dev nD) : W3 m ρ c (Proc.devRef .tc main_v5) = srcLabels (edges m c) := by
  dsimp only [W3, W2, W1, hostOps0_2, hostOps0_1, hostOps0]
  after_results_simp
  read_back
  rfl

set_option maxRecDepth 65536 in
theorem dst_at_entry (c : Dev nD) : W3 m ρ c (Proc.devRef .tc main_v6) = dstLabels (edges m c) := by
  dsimp only [W3, W2, W1, hostOps0_2, hostOps0_1, hostOps0]
  after_results_simp
  read_back
  rfl

set_option maxRecDepth 65536 in
theorem weight_at_entry (c : Dev nD) :
    W3 m ρ c (Proc.devRef .tc main_v30) = edgeWeight (F := Ideal) (srcLabels (edges m c)) (dstLabels (edges m c)) := by
  dsimp only [W3, W2, W1, hostOps0_2, hostOps0_1, hostOps0]
  after_results_simp
  read_back
  strip_moves
  rfl

/-- An argument array at the first region's entry is as launched. -/
theorem arg0_at_entry (c : Dev nD) : W3 m ρ c (Proc.devRef .tc main_arg0) = m ((c.tc : Thread nD τ).loc main_arg0) := by
  dsimp only [W3, W2, W1, hostOps0_2, hostOps0_1, hostOps0]
  after_results_simp <;> rfl
theorem arg2_at_entry (c : Dev nD) : W3 m ρ c (Proc.devRef .tc main_arg2) = m ((c.tc : Thread nD τ).loc main_arg2) := by
  dsimp only [W3, W2, W1, hostOps0_2, hostOps0_1, hostOps0]
  after_results_simp <;> rfl
theorem arg3_at_entry (c : Dev nD) : W3 m ρ c (Proc.devRef .tc main_arg3) = m ((c.tc : Thread nD τ).loc main_arg3) := by
  dsimp only [W3, W2, W1, hostOps0_2, hostOps0_1, hostOps0]
  after_results_simp <;> rfl
theorem arg4_at_entry (c : Dev nD) : W3 m ρ c (Proc.devRef .tc main_arg4) = m ((c.tc : Thread nD τ).loc main_arg4) := by
  dsimp only [W3, W2, W1, hostOps0_2, hostOps0_1, hostOps0]
  after_results_simp <;> rfl
theorem arg5_at_entry (c : Dev nD) : W3 m ρ c (Proc.devRef .tc main_arg5) = m ((c.tc : Thread nD τ).loc main_arg5) := by
  dsimp only [W3, W2, W1, hostOps0_2, hostOps0_1, hostOps0]
  after_results_simp <;> rfl

/-! ## The middle stretches: the hidden layer, at the second region's entry -/

set_option maxRecDepth 65536 in
theorem hidden_at_entry (c : Dev nD) :
    W6 m ρ c (Proc.devRef .tc main_v47)
      = hiddenLayer (F := Ideal) (W4 m ρ c (Proc.devRef .tc main_v31)) (W4 m ρ c (Proc.devRef .tc main_v5))
          (W4 m ρ c (Proc.devRef .tc main_v6)) (W4 m ρ c (Proc.devRef .tc main_v30)) (W4 m ρ c (Proc.devRef .tc main_arg3)) := by
  dsimp only [W6, W5, hostOps1_1, hostOps1]
  after_results_simp
  strip_moves
  rfl

/-- The middle stretches write none of the buffers the closing stretches read besides the hidden layer. -/
theorem kept_v5 (c : Dev nD) : W6 m ρ c (Proc.devRef .tc main_v5) = W4 m ρ c (Proc.devRef .tc main_v5) := by
  dsimp only [W6, W5, hostOps1_1, hostOps1]
  after_results_simp <;> rfl
theorem kept_v6 (c : Dev nD) : W6 m ρ c (Proc.devRef .tc main_v6) = W4 m ρ c (Proc.devRef .tc main_v6) := by
  dsimp only [W6, W5, hostOps1_1, hostOps1]
  after_results_simp <;> rfl
theorem kept_v30 (c : Dev nD) : W6 m ρ c (Proc.devRef .tc main_v30) = W4 m ρ c (Proc.devRef .tc main_v30) := by
  dsimp only [W6, W5, hostOps1_1, hostOps1]
  after_results_simp <;> rfl
theorem kept_arg4 (c : Dev nD) : W6 m ρ c (Proc.devRef .tc main_arg4) = W4 m ρ c (Proc.devRef .tc main_arg4) := by
  dsimp only [W6, W5, hostOps1_1, hostOps1]
  after_results_simp <;> rfl
theorem kept_arg5 (c : Dev nD) : W6 m ρ c (Proc.devRef .tc main_arg5) = W4 m ρ c (Proc.devRef .tc main_arg5) := by
  dsimp only [W6, W5, hostOps1_1, hostOps1]
  after_results_simp <;> rfl

/-! ## The closing stretches: the output layer -/

set_option maxRecDepth 65536 in
theorem output_at_end (c : Dev nD) :
    W9 m ρ c (Proc.devRef .tc main_v64)
      = outputLayer (F := Ideal) (W7 m ρ c (Proc.devRef .tc main_v48)) (W7 m ρ c (Proc.devRef .tc main_v5))
          (W7 m ρ c (Proc.devRef .tc main_v6)) (W7 m ρ c (Proc.devRef .tc main_v30)) (W7 m ρ c (Proc.devRef .tc main_arg5)) := by
  dsimp only [W9, W8, hostOps2_1, hostOps2]
  after_results_simp
  strip_moves
  rfl

/-! ## The regions -/

/-- The first region's output is the whole product x·W1 of the arguments as launched. -/
theorem product_after_region0 (c : Dev nD) :
    W4 m ρ c (Proc.devRef .tc main_v31)
      = GcnProduct0.wholeProduct (m ((c.tc : Thread nD τ).loc main_arg0)) (m ((c.tc : Thread nD τ).loc main_arg2)) := by
  have e : W4 m ρ c (Proc.devRef .tc main_v31) = (dat0 (V3 m ρ) c).arrAt 2 cfg0.N := W4_arr m ρ c 2
  rw [e, GcnProduct0.whole_product]
  dsimp only [V3]
  rw [arg0_at_entry, arg2_at_entry]

/-- The second region's output is the whole product of what it finds in the hidden layer's buffer and W2's. -/
theorem product_after_region1 (c : Dev nD) :
    W7 m ρ c (Proc.devRef .tc main_v48)
      = GcnProduct1.wholeProduct (W6 m ρ c (Proc.devRef .tc main_v47)) (W6 m ρ c (Proc.devRef .tc main_arg4)) := by
  have e : W7 m ρ c (Proc.devRef .tc main_v48) = (dat1 (V6 m ρ) c).arrAt 2 cfg1.N := W7_arr m ρ c 2
  rw [e, GcnProduct1.whole_product]

/-! ## The whole program -/

/-- The result buffer at the last segment boundary is the network function of the arguments as launched. -/
theorem kernel_is_network (c : Dev nD) :
    W9 m ρ c (Proc.devRef .tc main_v64)
      = network (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  rw [output_at_end, product_after_region1,
    W7_of_ne m ρ c main_v5 (by decide), W7_of_ne m ρ c main_v6 (by decide), W7_of_ne m ρ c main_v30 (by decide),
    W7_of_ne m ρ c main_arg5 (by decide),
    hidden_at_entry, kept_v5, kept_v6, kept_v30, kept_arg4, kept_arg5, product_after_region0,
    W4_of_ne m ρ c main_v5 (by decide), W4_of_ne m ρ c main_v6 (by decide), W4_of_ne m ρ c main_v30 (by decide),
    W4_of_ne m ρ c main_arg3 (by decide), W4_of_ne m ρ c main_arg4 (by decide), W4_of_ne m ρ c main_arg5 (by decide),
    src_at_entry, dst_at_entry, weight_at_entry, arg3_at_entry, arg4_at_entry, arg5_at_entry]
  rfl

/-- On arguments that agree, the reference's result term is the kernel program's result buffer at its last
    segment boundary. -/
theorem result_eq (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5)) :
    Cert.ReferenceIdeal.ValueP.res_main_v91 m' c = W9 m ρ c (Proc.devRef .tc main_v64) := by
  rw [Cert.ReferenceIdeal.Gcn.result_is_network, h0, h1, h2, h3, h4, h5, kernel_is_network]

end Cert.KernelIdeal.GcnBridge

end
-- ==== Proof.lean ====
/-
  The certificate of the two-layer graph convolution: the kernel program (two row-tiled matrix products among
  host gather / scatter-add propagation steps) against the plain reference.

  At the ideal instance both programs compute, on the extended reals,
      log_softmax( P(relu(P(x·W1) + b1)·W2) + b2 ),
  where P gathers the rows of its argument by source label, scales row e by dinv[src e]·dinv[dst e] and adds it into
  row dst e (self-loops appended to the edge list; dinv = deg^(-1/2) where the in-degree deg is positive, 0 elsewhere).
  The kernel program forms each matrix product block of rows by block of rows, each block a sum over the
  contracted axis from a zero accumulator (rounding to bf16 is the identity on the extended reals); the blocks tile the
  rows, so each region's output is the whole product, which is what the reference's dot_general is.  Every other
  operation is the same in the two programs, in the same order, so the two results are one term of the arguments.
  No algebraic law that could fail at an infinity is used: the finiteness precondition is never opened.

  The three frames: the two kernel programs' are the generated frame certificates; the reference's is its run with
  the result dropped.  The ideal pass rewrote nothing, so the preservation claim is trivial.
-/
import proofs.«109695_j64544768525120_1_alg».proof.Defs
import proofs.«109695_j64544768525120_1_alg».proof.Proof.Gen.Kernel
import proofs.«109695_j64544768525120_1_alg».proof.Proof.Gen.Kernel.Skeleton
import proofs.«109695_j64544768525120_1_alg».proof.Proof.Gen.Kernel.Launch
import proofs.«109695_j64544768525120_1_alg».proof.Proof.Gen.Kernel.Points
import proofs.«109695_j64544768525120_1_alg».proof.Proof.Gen.Kernel.Frame
import proofs.«109695_j64544768525120_1_alg».proof.Proof.Gen.KernelIdeal
import proofs.«109695_j64544768525120_1_alg».proof.Proof.Gen.KernelIdeal.Skeleton
import proofs.«109695_j64544768525120_1_alg».proof.Proof.Gen.KernelIdeal.Launch
import proofs.«109695_j64544768525120_1_alg».proof.Proof.Gen.KernelIdeal.Points
import proofs.«109695_j64544768525120_1_alg».proof.Proof.Gen.KernelIdeal.Frame
import proofs.«109695_j64544768525120_1_alg».proof.Proof.Gen.ReferenceIdeal
import proofs.«109695_j64544768525120_1_alg».proof.Proof.Gen.Pre_finite_inputs
import proofs.«109695_j64544768525120_1_alg».proof.Proof.KRun
import proofs.«109695_j64544768525120_1_alg».proof.Proof.Bridge
import proofs.«109695_j64544768525120_1_alg».proof.Proof.RefRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference_ideal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs run, and end with the same result: the kernel program's result buffer at its last segment
    boundary, which is the reference's term of the arguments. -/
theorem algebraic : Cert.algebraic_KernelIdeal_ReferenceIdeal := by
  intro m ρ m' ρ' _ hagree
  refine ⟨fun c => Cert.KernelIdeal.Gen.W9 m ρ c (Proc.devRef .tc Cert.KernelIdeal.main_v64),
    Cert.KernelIdeal.GcnRun.run_value m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5⟩ := hagree c
  exact Cert.KernelIdeal.GcnBridge.result_eq m ρ m' c a0 a1 a2 a3 a4 a5

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
